-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64x128 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128x128 .f32) (main_arg3 : FVec F S128 .f32) (main_arg4 : FVec F S64x128 .f32) (main_arg5 : FVec F S64x128 .f32) (main_arg6 : FVec F S64 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩
abbrev S128x64 : Shape := ⟨2, ![128, 64]⟩

abbrev nBuf : Space → Nat
  | .hbm => 68
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x64, .f32⟩
  | .hbm, ⟨67, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S64x128, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S1x1600000, .i32⟩
  | .hbm, ⟨50, _⟩ => ⟨S1600000, .i32⟩
  | .hbm, ⟨51, _⟩ => ⟨S1x1600000, .i32⟩
  | .hbm, ⟨52, _⟩ => ⟨S1600000, .i32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S128x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S128x64, .f32⟩
  | .hbm, ⟨85, _⟩ => ⟨S100000x64, .f32⟩
  | .hbm, ⟨86, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel's program run once more, now remembering its RESULT.

  The program is two pipelined regions among stretches of array operations.  Walking it from the launch,
  the contents of every buffer at each boundary are a fold: an operation stretch applies its operations
  to the contents before it, a region replaces its windows' arrays by what its write-backs leave.  The
  generated frame proves that every weakly fair execution ends with every unscoped buffer at the last
  boundary's contents `W8`, and then reads only the ARGUMENTS off that state.  Read the result buffer
  off the same state as well and the run says: the result array ends at `W8` there.
-/
import proofs.«150540_j34093450396002_1_alg».proof.Proof.Gen.KernelIdeal.Frame

set_option maxRecDepth 16384

noncomputable section

namespace Cert.Sage.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the
    last boundary's contents and the eight argument arrays as launched. -/
theorem run_result : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.Sage.Kernel

end
-- ==== Proof.Agg.lean ====
/-
  The mean over incoming edges, as ONE function of a feature array and the edge list.

  The edge list `e` has two rows: row 0 the source node of every edge, row 1 its destination.  A negative
  source is wrapped once by the node count (the indexing convention of the array language); the gather
  takes the source's feature row for every edge, the first scatter adds each row into its destination's
  bucket, the second scatter counts the edges per destination, the count is raised to at least one, and
  the sums are divided by it.  Both programs apply exactly these operations — the kernel's program once
  to the input features and once to the hidden features, the reference likewise — so the proof carries
  them as this one function and never looks inside.
-/
import proofs.«150540_j34093450396002_1_alg».proof.Proof.Gen.KernelIdeal

noncomputable section

namespace Cert.Sage

open Idealize.ShloMosaic Cert.KernelIdeal Cert.KernelIdeal.Facts₀

variable {F : FTy → Type} [FloatOps F]

/-- Row `r` (0: sources, 1: destinations) of the edge list, as a flat vector of words. -/
def edgeRow0 (e : IVec S2x1600000 32) : IVec S1600000 32 :=
  shapeCast _ (extractStridedSlice S1x1600000 ![0, 0] e slices_S2x1600000_S1x1600000_0_0) shapeCasts_S1x1600000_S1600000
def edgeRow1 (e : IVec S2x1600000 32) : IVec S1600000 32 :=
  shapeCast _ (extractStridedSlice S1x1600000 ![1, 0] e slices_S2x1600000_S1x1600000_1_0) shapeCasts_S1x1600000_S1600000

/-- The mean of the in-neighbours' feature rows at every node (a node without incoming edges gets the
    zero sum divided by one). -/
def agg (feat : FVec F S100000x128 .f32) (e : IVec S2x1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (edgeRow1 e))
      (Host.gather gather_S100000x128_S1600000x1_S1600000x128_1_0_n_n_0_1_1128 feat
        (broadcastInDim S1600000x1 ![0] bcast_S1600000_S1600000x1_0
          (select (cmpi .slt (edgeRow0 e) (broadcastInDim S1600000 ![] bcast_S_S1600000 (constantI S_ 32 0#32)))
            (addi (edgeRow0 e) (broadcastInDim S1600000 ![] bcast_S_S1600000 (constantI S_ 32 100000#32)))
            (edgeRow0 e)))))
    (broadcastInDim S100000x128 ![0, 1] bcast_S100000x1_S100000x128_0_1
      (broadcastInDim S100000x1 ![0] bcast_S100000_S100000x1_0
        (maximumf (broadcastInDim S100000 ![] bcast_S_S100000 (constant S_ .f32 0x3F800000#32))
          (Host.scatterAdd scatter_S100000_S1600000x1_S1600000_n_0_0_1
            (broadcastInDim S100000 ![] bcast_S_S100000 (constant S_ .f32 0x00000000#32))
            (broadcastInDim S1600000x1 ![0] bcast_S1600000_S1600000x1_0 (edgeRow1 e))
            (broadcastInDim S1600000 ![] bcast_S_S1600000 (constant S_ .f32 0x3F800000#32))))))

end Cert.Sage

end
-- ==== Proof.HostK0.lean ====
/-
  The array operations around the two regions of the kernel's program, read off the run's fold.

  Entering region one, the mean array is the neighbourhood mean of the input features, the bias row is the
  bias vector as a one-row matrix, and the feature and weight arrays are the arguments.  Entering region
  two, the mean array is the neighbourhood mean of region one's RESULT (the edge list's two rows were cut
  out once, before region one, and no region touches them), the bias row is the second bias vector, and the
  weights are the arguments.
-/
import proofs.«150540_j34093450396002_1_alg».proof.Proof.Gen.KernelIdeal.Frame
import proofs.«150540_j34093450396002_1_alg».proof.Proof.Agg
import Idealize.ShloMosaic.Lib.StableHlo.Run
import Idealize.ShloMosaic.Lib.ValueLayout
import Idealize.ShloMosaic.Lib.ValueIdx

set_option maxRecDepth 16384

noncomputable section

namespace Cert.Sage.Kernel

open Idealize.ShloMosaic Idealize.ShloMosaic.TcCoe Idealize.ShloMosaic.Tactic
open Idealize.SL Idealize.SL.Sem
open Idealize.ShloMosaic.StableHlo
open Idealize.ShloMosaic.ValueIdx
open Cert.KernelIdeal Cert.KernelIdeal.Gen Cert.Sage

variable (m : (ℓ : Loc nD τ sig) → Buf (Elt Ideal) ℓ) (ρ : Dev nD → PrngReg)

/-- Buffer contents read at their literal array types (the identity; it only states the type). -/
abbrev asM (x : FVec Ideal S100000x128 .f32) : FVec Ideal S100000x128 .f32 := x
abbrev asV (x : FVec Ideal S100000 .f32) : FVec Ideal S100000 .f32 := x
abbrev asS (x : FVec Ideal S_ .f32) : FVec Ideal S_ .f32 := x
abbrev asE (x : IVec S1600000 32) : IVec S1600000 32 := x

/-! ## Region one's entry contents -/

/-- After the first stretch of array operations the first cut of the edge list is its row of sources … -/
theorem W1_v1 (c : Dev nD) : asE (W1 m ρ c (Proc.devRef .tc main_v1)) = edgeRow0 (m ((c : Thread nD τ).loc main_arg7)) := by
  dsimp only [W1, W0, hostOps0]
  after_results_simp <;> rfl

/-- … the second its row of destinations … -/
theorem W1_v3 (c : Dev nD) : asE (W1 m ρ c (Proc.devRef .tc main_v3)) = edgeRow1 (m ((c : Thread nD τ).loc main_arg7)) := by
  dsimp only [W1, W0, hostOps0]
  after_results_simp <;> rfl

/-- … the sums of the sources' feature rows are in their destinations' buckets … -/
theorem W1_v13 (c : Dev nD) :
    asM (W1 m ρ c (Proc.devRef .tc main_v13))
      = Host.scatterAdd (F := Ideal) scatter_S100000x128_S1600000x1_S1600000x128_1_0_0_1
        (broadcastInDim S100000x128 ![] Cert.KernelIdeal.Gen.bcast_S_S100000x128 (constant (F := Ideal) S_ .f32 0x00000000#32))
        (broadcastInDim S1600000x1 ![0] Cert.KernelIdeal.Gen.bcast_S1600000_S1600000x1_0 (edgeRow1 (m ((c : Thread nD τ).loc main_arg7))))
        (Host.gather gather_S100000x128_S1600000x1_S1600000x128_1_0_n_n_0_1_1128 (m ((c : Thread nD τ).loc main_arg0))
          (broadcastInDim S1600000x1 ![0] Cert.KernelIdeal.Gen.bcast_S1600000_S1600000x1_0
            (select (cmpi .slt (edgeRow0 (m ((c : Thread nD τ).loc main_arg7))) (broadcastInDim S1600000 ![] Cert.KernelIdeal.Gen.bcast_S_S1600000 (constantI S_ 32 0#32)))
              (addi (edgeRow0 (m ((c : Thread nD τ).loc main_arg7))) (broadcastInDim S1600000 ![] Cert.KernelIdeal.Gen.bcast_S_S1600000 (constantI S_ 32 100000#32)))
              (edgeRow0 (m ((c : Thread nD τ).loc main_arg7)))))) := by
  dsimp only [W1, W0, hostOps0]
  after_results_simp <;> rfl

/-- … the incoming edges are counted per destination … -/
theorem W1_v17 (c : Dev nD) :
    asV (W1 m ρ c (Proc.devRef .tc main_v17))
      = Host.scatterAdd (F := Ideal) scatter_S100000_S1600000x1_S1600000_n_0_0_1
        (broadcastInDim S100000 ![] Cert.KernelIdeal.Gen.bcast_S_S100000 (constant (F := Ideal) S_ .f32 0x00000000#32))
        (broadcastInDim S1600000x1 ![0] Cert.KernelIdeal.Gen.bcast_S1600000_S1600000x1_0 (edgeRow1 (m ((c : Thread nD τ).loc main_arg7))))
        (broadcastInDim S1600000 ![] Cert.KernelIdeal.Gen.bcast_S_S1600000 (constant (F := Ideal) S_ .f32 0x3F800000#32)) := by
  dsimp only [W1, W0, hostOps0]
  after_results_simp <;> rfl

/-- … and the constant one is ready for the next stretch. -/
theorem W1_cst3 (c : Dev nD) : asS (W1 m ρ c (Proc.devRef .tc main_cst_3)) = (constant (F := Ideal) S_ .f32 0x3F800000#32) := by
  dsimp only [W1, W0, hostOps0]
  after_results_simp <;> rfl

/-- The second stretch raises the counts to at least one … -/
theorem W2_v18 (c : Dev nD) :
    asV (W2 m ρ c (Proc.devRef .tc main_v18))
      = maximumf (F := Ideal) (broadcastInDim S100000 ![] Cert.KernelIdeal.Gen.bcast_S_S100000 (asS (W1 m ρ c (Proc.devRef .tc main_cst_3)))) (asV (W1 m ρ c (Proc.devRef .tc main_v17))) := by
  dsimp only [W2, hostOps0_1]
  generalize W1 m ρ c = X
  after_results_simp <;> rfl

/-- … and touches neither the sums nor the edge rows. -/
theorem W2_v13 (c : Dev nD) : (W2 m ρ c (Proc.devRef .tc main_v13)) = (W1 m ρ c (Proc.devRef .tc main_v13)) := by
  dsimp only [W2, hostOps0_1]
  generalize W1 m ρ c = X
  after_results_simp <;> rfl

/-- The third stretch divides the sums by the raised counts. -/
theorem W3_v21 (c : Dev nD) :
    asM (W3 m ρ c (Proc.devRef .tc main_v21))
      = Host.divf (F := Ideal) (asM (W2 m ρ c (Proc.devRef .tc main_v13)))
        (broadcastInDim S100000x128 ![0, 1] Cert.KernelIdeal.Gen.bcast_S100000x1_S100000x128_0_1
          (broadcastInDim S100000x1 ![0] Cert.KernelIdeal.Gen.bcast_S100000_S100000x1_0 (asV (W2 m ρ c (Proc.devRef .tc main_v18))))) := by
  dsimp only [W3, hostOps0_2]
  generalize W2 m ρ c = X
  after_results_simp <;> rfl

/-- Region one is entered with the neighbourhood mean of the input features … -/
theorem V3_v21 (c : Dev nD) :
    asM (V3 m ρ c main_v21) = agg (F := Ideal) (m ((c : Thread nD τ).loc main_arg0)) (m ((c : Thread nD τ).loc main_arg7)) := by
  show asM (W3 m ρ c (Proc.devRef .tc main_v21)) = _
  rw [W3_v21, W2_v13, W2_v18, W1_v13, W1_v17, W1_cst3]
  rfl

/-- The later stretches leave the edge rows alone. -/
theorem W3_v1 (c : Dev nD) : asE (W3 m ρ c (Proc.devRef .tc main_v1)) = edgeRow0 (m ((c : Thread nD τ).loc main_arg7)) := by
  rw [← W1_v1 m ρ c]
  dsimp only [W3, W2, hostOps0_1, hostOps0_2]
  generalize W1 m ρ c = X
  after_results_simp <;> rfl
theorem W3_v3 (c : Dev nD) : asE (W3 m ρ c (Proc.devRef .tc main_v3)) = edgeRow1 (m ((c : Thread nD τ).loc main_arg7)) := by
  rw [← W1_v3 m ρ c]
  dsimp only [W3, W2, hostOps0_1, hostOps0_2]
  generalize W1 m ρ c = X
  after_results_simp <;> rfl

/-- … with the feature array and the two weight matrices as launched … -/
theorem V3_arg0 (c : Dev nD) : V3 m ρ c main_arg0 = m ((c : Thread nD τ).loc main_arg0) := by
  dsimp only [V3, W3, W2, W1, W0, hostOps0, hostOps0_1, hostOps0_2]
  after_results_simp <;> rfl
theorem V3_arg1 (c : Dev nD) : V3 m ρ c main_arg1 = m ((c : Thread nD τ).loc main_arg1) := by
  dsimp only [V3, W3, W2, W1, W0, hostOps0, hostOps0_1, hostOps0_2]
  after_results_simp <;> rfl
theorem V3_arg2 (c : Dev nD) : V3 m ρ c main_arg2 = m ((c : Thread nD τ).loc main_arg2) := by
  dsimp only [V3, W3, W2, W1, W0, hostOps0, hostOps0_1, hostOps0_2]
  after_results_simp <;> rfl

/-- … and with the bias vector as a one-row matrix. -/
theorem V3_v22 (c : Dev nD) (k : Fin 128) :
    (V3 m ρ c main_v22 : FVec Ideal S1x128 .f32) (ix2 (0 : Fin 1) k)
      = (m ((c : Thread nD τ).loc main_arg3) : FVec Ideal S128 .f32) (ix1 k) := by
  have e : (V3 m ρ c main_v22 : FVec Ideal S1x128 .f32)
      = shapeCast S1x128 (m ((c : Thread nD τ).loc main_arg3) : FVec Ideal S128 .f32) Cert.KernelIdeal.Gen.shapeCasts_S128_S1x128 := by
    dsimp only [V3, W3, W2, W1, W0, hostOps0, hostOps0_1, hostOps0_2]
    after_results_simp <;> rfl
  rw [e]
  exact shapeCast_a_1a_apply _ _ (0 : Fin 1) k

end Cert.Sage.Kernel

end
-- ==== Proof.HostK1.lean ====
/-
  The array operations around the two regions of the kernel's program, read off the run's fold.

  Entering region one, the mean array is the neighbourhood mean of the input features, the bias row is the
  bias vector as a one-row matrix, and the feature and weight arrays are the arguments.  Entering region
  two, the mean array is the neighbourhood mean of region one's RESULT (the edge list's two rows were cut
  out once, before region one, and no region touches them), the bias row is the second bias vector, and the
  weights are the arguments.
-/
import proofs.«150540_j34093450396002_1_alg».proof.Proof.Gen.KernelIdeal.Frame
import proofs.«150540_j34093450396002_1_alg».proof.Proof.HostK0
import proofs.«150540_j34093450396002_1_alg».proof.Proof.Agg
import Idealize.ShloMosaic.Lib.StableHlo.Run
import Idealize.ShloMosaic.Lib.ValueLayout
import Idealize.ShloMosaic.Lib.ValueIdx

set_option maxRecDepth 16384

noncomputable section

namespace Cert.Sage.Kernel

open Idealize.ShloMosaic Idealize.ShloMosaic.TcCoe Idealize.ShloMosaic.Tactic
open Idealize.SL Idealize.SL.Sem
open Idealize.ShloMosaic.StableHlo
open Idealize.ShloMosaic.ValueIdx
open Cert.KernelIdeal Cert.KernelIdeal.Gen Cert.Sage

variable (m : (ℓ : Loc nD τ sig) → Buf (Elt Ideal) ℓ) (ρ : Dev nD → PrngReg)

/-! ## Region two's entry contents -/

/-- After region one the fourth stretch of array operations gathers region one's result along the sources and
    adds the rows into their destinations' buckets … -/
theorem W5_v33 (c : Dev nD) :
    asM (W5 m ρ c (Proc.devRef .tc main_v33))
      = Host.scatterAdd (F := Ideal) scatter_S100000x128_S1600000x1_S1600000x128_1_0_0_1
        (broadcastInDim S100000x128 ![] Cert.KernelIdeal.Gen.bcast_S_S100000x128 (constant (F := Ideal) S_ .f32 0x00000000#32))
        (broadcastInDim S1600000x1 ![0] Cert.KernelIdeal.Gen.bcast_S1600000_S1600000x1_0 (asE (W4 m ρ c (Proc.devRef .tc main_v3))))
        (Host.gather gather_S100000x128_S1600000x1_S1600000x128_1_0_n_n_0_1_1128 (asM (W4 m ρ c (Proc.devRef .tc main_v23)))
          (broadcastInDim S1600000x1 ![0] Cert.KernelIdeal.Gen.bcast_S1600000_S1600000x1_0
            (select (cmpi .slt (asE (W4 m ρ c (Proc.devRef .tc main_v1))) (broadcastInDim S1600000 ![] Cert.KernelIdeal.Gen.bcast_S_S1600000 (constantI S_ 32 0#32)))
              (addi (asE (W4 m ρ c (Proc.devRef .tc main_v1))) (broadcastInDim S1600000 ![] Cert.KernelIdeal.Gen.bcast_S_S1600000 (constantI S_ 32 100000#32)))
              (asE (W4 m ρ c (Proc.devRef .tc main_v1)))))) := by
  dsimp only [W5, hostOps1]
  generalize W4 m ρ c = X
  after_results_simp <;> rfl

/-- … counts the incoming edges per destination again … -/
theorem W5_v37 (c : Dev nD) :
    asV (W5 m ρ c (Proc.devRef .tc main_v37))
      = Host.scatterAdd (F := Ideal) scatter_S100000_S1600000x1_S1600000_n_0_0_1
        (broadcastInDim S100000 ![] Cert.KernelIdeal.Gen.bcast_S_S100000 (constant (F := Ideal) S_ .f32 0x00000000#32))
        (broadcastInDim S1600000x1 ![0] Cert.KernelIdeal.Gen.bcast_S1600000_S1600000x1_0 (asE (W4 m ρ c (Proc.devRef .tc main_v3))))
        (broadcastInDim S1600000 ![] Cert.KernelIdeal.Gen.bcast_S_S1600000 (constant (F := Ideal) S_ .f32 0x3F800000#32)) := by
  dsimp only [W5, hostOps1]
  generalize W4 m ρ c = X
  after_results_simp <;> rfl

/-- … and has the constant one ready for the next stretch. -/
theorem W5_cst9 (c : Dev nD) : asS (W5 m ρ c (Proc.devRef .tc main_cst_9)) = (constant (F := Ideal) S_ .f32 0x3F800000#32) := by
  dsimp only [W5, hostOps1]
  generalize W4 m ρ c = X
  after_results_simp <;> rfl

/-- The fifth stretch raises the counts to at least one … -/
theorem W6_v38 (c : Dev nD) :
    asV (W6 m ρ c (Proc.devRef .tc main_v38))
      = maximumf (F := Ideal) (broadcastInDim S100000 ![] Cert.KernelIdeal.Gen.bcast_S_S100000 (asS (W5 m ρ c (Proc.devRef .tc main_cst_9)))) (asV (W5 m ρ c (Proc.devRef .tc main_v37))) := by
  dsimp only [W6, hostOps1_1]
  generalize W5 m ρ c = X
  after_results_simp <;> rfl

/-- … and does not touch the sums. -/
theorem W6_v33 (c : Dev nD) : (W6 m ρ c (Proc.devRef .tc main_v33)) = (W5 m ρ c (Proc.devRef .tc main_v33)) := by
  dsimp only [W6, hostOps1_1]
  generalize W5 m ρ c = X
  after_results_simp <;> rfl

/-- The sixth stretch divides the sums by the raised counts. -/
theorem W7_v41 (c : Dev nD) :
    asM (W7 m ρ c (Proc.devRef .tc main_v41))
      = Host.divf (F := Ideal) (asM (W6 m ρ c (Proc.devRef .tc main_v33)))
        (broadcastInDim S100000x128 ![0, 1] Cert.KernelIdeal.Gen.bcast_S100000x1_S100000x128_0_1
          (broadcastInDim S100000x1 ![0] Cert.KernelIdeal.Gen.bcast_S100000_S100000x1_0 (asV (W6 m ρ c (Proc.devRef .tc main_v38))))) := by
  dsimp only [W7, hostOps1_2]
  generalize W6 m ρ c = X
  after_results_simp <;> rfl

/-- Region two is entered with the neighbourhood mean of region one's result (the edge rows are still the ones cut
    out before region one: region one writes neither) … -/
theorem V7_v41 (c : Dev nD) :
    asM (V7 m ρ c main_v41) = agg (F := Ideal) (asM (W4 m ρ c (Proc.devRef .tc main_v23))) (m ((c : Thread nD τ).loc main_arg7)) := by
  show asM (W7 m ρ c (Proc.devRef .tc main_v41)) = _
  rw [W7_v41, W6_v33, W6_v38, W5_v33, W5_v37, W5_cst9, W4_of_ne m ρ c main_v1 (by decide), W4_of_ne m ρ c main_v3 (by decide),
    W3_v1, W3_v3]
  rfl

/-- … with region one's result itself as the hidden features … -/
theorem V7_v23 (c : Dev nD) : V7 m ρ c main_v23 = W4 m ρ c (Proc.devRef .tc main_v23) := by
  dsimp only [V7, W7, W6, W5, hostOps1, hostOps1_1, hostOps1_2]
  generalize W4 m ρ c = X
  after_results_simp <;> rfl

/-- … the two weight matrices as launched: region two does not write them, and the run ends with them as launched … -/
theorem V7_arg4 (c : Dev nD) : V7 m ρ c main_arg4 = m ((c : Thread nD τ).loc main_arg4) :=
  ((W8_arr m ρ c 2).trans (((dat1 (V7 m ρ) c).arrAt_in 2 rfl _).trans (A_eq1 (V7 m ρ) c 2))).symm.trans (W8_main_arg4 m ρ c)
theorem V7_arg5 (c : Dev nD) : V7 m ρ c main_arg5 = m ((c : Thread nD τ).loc main_arg5) :=
  ((W8_arr m ρ c 3).trans (((dat1 (V7 m ρ) c).arrAt_in 3 rfl _).trans (A_eq1 (V7 m ρ) c 3))).symm.trans (W8_main_arg5 m ρ c)

/-- The second bias vector reaches region two untouched by every stretch and by region one … -/
theorem W4_arg6 (c : Dev nD) : W4 m ρ c (Proc.devRef .tc main_arg6) = m ((c : Thread nD τ).loc main_arg6) := by
  rw [W4_of_ne m ρ c main_arg6 (by decide)]
  dsimp only [W3, W2, W1, W0, hostOps0, hostOps0_1, hostOps0_2]
  after_results_simp <;> rfl

/-- … and enters it as a one-row matrix. -/
theorem V7_v42 (c : Dev nD) (k : Fin 64) :
    (V7 m ρ c main_v42 : FVec Ideal S1x64 .f32) (ix2 (0 : Fin 1) k)
      = (m ((c : Thread nD τ).loc main_arg6) : FVec Ideal S64 .f32) (ix1 k) := by
  have e : (V7 m ρ c main_v42 : FVec Ideal S1x64 .f32)
      = shapeCast S1x64 (W4 m ρ c (Proc.devRef .tc main_arg6) : FVec Ideal S64 .f32) Cert.KernelIdeal.Gen.shapeCasts_S64_S1x64 := by
    dsimp only [V7, W7, W6, W5, hostOps1, hostOps1_1, hostOps1_2]
    generalize W4 m ρ c = X
    after_results_simp <;> rfl
  rw [e, W4_arg6]
  exact shapeCast_a_1a_apply _ _ (0 : Fin 1) k

end Cert.Sage.Kernel

end
-- ==== Proof.Spec.lean ====
/-
  The two graph-convolution layers as functions on extended reals.

  Every node `r` of the graph carries a feature row.  A layer takes the rows `M r` (the mean of the
  in-neighbours' rows, however it was obtained) and the node's own rows `x r`, two weight matrices
  `Wl`, `Wr` stored output-feature-major (`W k j` multiplies input feature `j` into output feature `k`),
  and a bias `b`, and returns at node `r`, output feature `k`

      ∑ j, M r j · Wl k j  +  ∑ j, x r j · Wr k j  +  b k,

  the first layer followed by a maximum with zero.  The three addends can be summed in either order:
  addition of extended reals is commutative and associative (no cancellation is used, so the infinities
  need no care).
-/
import proofs.«150540_j34093450396002_1_alg».proof.KernelIdeal
import Idealize.ShloMosaic.Lib.ValueIdx

noncomputable section

open scoped BigOperators

namespace Cert.Sage

open Idealize.ShloMosaic Idealize.ShloMosaic.ValueIdx Cert.KernelIdeal

/-- The first layer at node `r`, hidden feature `k`: both products first, then the bias, then `max · 0`. -/
def hiddenAt (M x : FVec Ideal S100000x128 .f32) (Wl Wr : FVec Ideal S128x128 .f32) (b : Fin 128 → EReal)
    (r : Fin 100000) (k : Fin 128) : EReal :=
  max ((∑ j : Fin 128, M (ix2 r j) * Wl (ix2 k j) + ∑ j : Fin 128, x (ix2 r j) * Wr (ix2 k j)) + b k) 0

/-- The first layer as an array over (node, hidden feature). -/
def hidden (M x : FVec Ideal S100000x128 .f32) (Wl Wr : FVec Ideal S128x128 .f32) (b : Fin 128 → EReal) :
    FVec Ideal S100000x128 .f32 :=
  fun i => hiddenAt M x Wl Wr b (i 0) (i 1)

theorem hidden_apply (M x : FVec Ideal S100000x128 .f32) (Wl Wr : FVec Ideal S128x128 .f32) (b : Fin 128 → EReal)
    (r : Fin 100000) (k : Fin 128) : hidden M x Wl Wr b (ix2 r k) = hiddenAt M x Wl Wr b r k := rfl

/-- The second layer at node `r`, output feature `k`: both products first, then the bias. -/
def outAt (M h : FVec Ideal S100000x128 .f32) (Wl Wr : FVec Ideal S64x128 .f32) (b : Fin 64 → EReal)
    (r : Fin 100000) (k : Fin 64) : EReal :=
  (∑ j : Fin 128, M (ix2 r j) * Wl (ix2 k j) + ∑ j : Fin 128, h (ix2 r j) * Wr (ix2 k j)) + b k

/-- The second layer as an array over (node, output feature). -/
def output (M h : FVec Ideal S100000x128 .f32) (Wl Wr : FVec Ideal S64x128 .f32) (b : Fin 64 → EReal) :
    FVec Ideal S100000x64 .f32 :=
  fun i => outAt M h Wl Wr b (i 0) (i 1)

theorem output_apply (M h : FVec Ideal S100000x128 .f32) (Wl Wr : FVec Ideal S64x128 .f32) (b : Fin 64 → EReal)
    (r : Fin 100000) (k : Fin 64) : output M h Wl Wr b (ix2 r k) = outAt M h Wl Wr b r k := rfl

/-- The bias may be added before the second product instead of after it. -/
theorem bias_between (p q b : EReal) : (p + b) + q = (p + q) + b := add_right_comm p b q

end Cert.Sage

end
-- ==== Proof.Payload.lean ====
/-
  The two kernel bodies read at one index, over the extended reals (every operation exact, a change of
  float format the identity).

  Layer one's body takes two [5000,128] blocks `x0`, `x1` (the neighbourhood means and the nodes' own
  rows), two [128,128] weight matrices `x2`, `x3` stored output-feature-major, and a [1,128] bias row
  `x4`.  It transposes each weight matrix, multiplies each block by its transposed matrix into a zero
  accumulator, adds the two products, adds the bias row to every row, and takes the maximum with zero.
  At row `p`, hidden feature `q` this is

      max ((∑ j, x0 p j · x2 q j  +  ∑ j, x1 p j · x3 q j)  +  x4 0 q) 0 :

  the transposed matrix at `(j, q)` is the stored one at `(q, j)`, the product into the zero accumulator
  is the plain sum over the 128 shared features, and the broadcast row reads its one row everywhere.

  Layer two's body is the same with [64,128] weights (transposed to [128,64]), a [1,64] bias row, a
  [5000,64] result, and no maximum:

      (∑ j, x0 p j · x2 q j  +  ∑ j, x1 p j · x3 q j)  +  x4 0 q .
-/
import proofs.«150540_j34093450396002_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage

open Idealize.ShloMosaic Idealize.ShloMosaic.ValueIdx Cert.KernelIdeal Cert.KernelIdeal.Gen

/-! ## The block products at an index

The contraction runs over the left operand's second axis and the right operand's first; its index set is
identified with the 128 shared features, and the two operand indices at output `(p, q)` and feature `j`
are `(p, j)` and `(j, q)`. -/

/-- The left operand's row coordinate at output index `i` is the output's row. -/
theorem lhs128_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction coordinate. -/
theorem lhs128_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row coordinate is the contraction coordinate. -/
theorem rhs128_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- The right operand's column coordinate is the output's column. -/
theorem rhs128_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] block product into the zero accumulator, read at `(p, q)`: the sum over the
    128 shared features `j` of `a p j * b j q`. -/
theorem mm128_apply {φ₁ φ₂ : FTy} (a : FVec Ideal S5000x128 φ₁) (b : FVec Ideal S128x128 φ₂) (p : Fin 5000) (q : Fin 128) :
    matmul (F := Ideal) dot_S5000x128_S128x128_S5000x128_1_0_0_1_n_n none a b (constant (F := Ideal) S5000x128 .f32 0x00000000#32) (ix2 p q)
      = ∑ j : Fin 128, a (ix2 p j) * b (ix2 j q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun c => Fin.ext (by
    match c with
    | ⟨0, _⟩ => exact lhs128_0 _ _
    | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun c => Fin.ext (by
    match c with
    | ⟨0, _⟩ => exact (rhs128_0 _ _).trans hk
    | ⟨1, _⟩ => exact rhs128_1 _ _)
  rw [el, er]

/-- The left operand's row coordinate at output index `i` is the output's row. -/
theorem lhs64_0 (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contraction coordinate. -/
theorem lhs64_1 (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
/-- The right operand's row coordinate is the contraction coordinate. -/
theorem rhs64_0 (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
/-- The right operand's column coordinate is the output's column. -/
theorem rhs64_1 (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000,128] by [128,64] block product into the zero accumulator, read at `(p, q)`: the sum over the
    128 shared features `j` of `a p j * b j q`. -/
theorem mm64_apply {φ₁ φ₂ : FTy} (a : FVec Ideal S5000x128 φ₁) (b : FVec Ideal S128x64 φ₂) (p : Fin 5000) (q : Fin 64) :
    matmul (F := Ideal) dot_S5000x128_S128x64_S5000x64_1_0_0_1_n_n none a b (constant (F := Ideal) S5000x64 .f32 0x00000000#32) (ix2 p q)
      = ∑ j : Fin 128, a (ix2 p j) * b (ix2 j q) := by
  refine (Ideal.matmul_constant_zero_apply dot_S5000x128_S128x64_S5000x64_1_0_0_1_n_n none a b (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun c => Fin.ext (by
    match c with
    | ⟨0, _⟩ => exact lhs64_0 _ _
    | ⟨1, _⟩ => exact (lhs64_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun c => Fin.ext (by
    match c with
    | ⟨0, _⟩ => exact (rhs64_0 _ _).trans hk
    | ⟨1, _⟩ => exact rhs64_1 _ _)
  rw [el, er]

/-- The same product with the right operand a transposed [128,128] matrix `w`: the transposed matrix at
    `(j, q)` is `w` at `(q, j)`. -/
theorem mmT128_apply {φ₁ φ₂ : FTy} (a : FVec Ideal S5000x128 φ₁) (w : FVec Ideal S128x128 φ₂) (p : Fin 5000) (q : Fin 128) :
    matmul (F := Ideal) dot_S5000x128_S128x128_S5000x128_1_0_0_1_n_n none a (transpose S128x128 [1, 0] w transposes_S128x128_p1_0_S128x128)
        (constant (F := Ideal) S5000x128 .f32 0x00000000#32) (ix2 p q)
      = ∑ j : Fin 128, a (ix2 p j) * w (ix2 q j) :=
  (mm128_apply a _ p q).trans
    (Finset.sum_congr rfl fun j _ => congrArg (a (ix2 p j) * ·) (transpose_ix2_apply w transposes_S128x128_p1_0_S128x128 j q))

/-- The same product with the right operand a transposed [64,128] matrix `w`: the transposed matrix at
    `(j, q)` is `w` at `(q, j)`. -/
theorem mmT64_apply {φ₁ φ₂ : FTy} (a : FVec Ideal S5000x128 φ₁) (w : FVec Ideal S64x128 φ₂) (p : Fin 5000) (q : Fin 64) :
    matmul (F := Ideal) dot_S5000x128_S128x64_S5000x64_1_0_0_1_n_n none a (transpose S128x64 [1, 0] w transposes_S64x128_p1_0_S128x64)
        (constant (F := Ideal) S5000x64 .f32 0x00000000#32) (ix2 p q)
      = ∑ j : Fin 128, a (ix2 p j) * w (ix2 q j) :=
  (mm64_apply a _ p q).trans
    (Finset.sum_congr rfl fun j _ => congrArg (a (ix2 p j) * ·) (transpose_ix2_apply w transposes_S64x128_p1_0_S128x64 j q))

/-! ## The two bodies at an index -/

/-- Layer one's body at row `p`, hidden feature `q`. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max ((∑ j : Fin 128, x0 (ix2 p j) * x2 (ix2 q j) + ∑ j : Fin 128, x1 (ix2 p j) * x3 (ix2 q j)) + x4 (ix2 0 q)) 0 := by
  unfold k0_pay1
  simp only [maximumf_apply, addf_apply, broadcast_apply, truncf_apply, shapeCast_self, broadcastTo_1b_ab_apply,
    Ideal.ofBits_def, Ideal.ofBits_zero_f32]
  exact congrArg (fun t => max (t + x4 (ix2 0 q)) 0)
    (congrArg₂ (· + ·) (mmT128_apply _ _ p q) (mmT128_apply _ _ p q))

/-- Layer two's body at row `p`, output feature `q`. -/
theorem pay1_apply (x0 x1 : Vec Ideal S5000x128 .f32) (x2 x3 : Vec Ideal S64x128 .f32) (x4 : Vec Ideal S1x64 .f32)
    (p : Fin 5000) (q : Fin 64) :
    k1_pay1 (F := Ideal) x0 x1 x2 x3 x4 (ix2 p q)
      = (∑ j : Fin 128, x0 (ix2 p j) * x2 (ix2 q j) + ∑ j : Fin 128, x1 (ix2 p j) * x3 (ix2 q j)) + x4 (ix2 0 q) := by
  unfold k1_pay1
  simp only [addf_apply, truncf_apply, shapeCast_self, broadcastTo_1b_ab_apply]
  exact congrArg (fun t => t + x4 (ix2 0 q))
    (congrArg₂ (· + ·) (mmT64_apply _ _ p q) (mmT64_apply _ _ p q))

end Cert.Sage

end
-- ==== Proof.Region0.lean ====
/-
  Region one of the kernel's program (the first layer), as one function of the arrays it is entered with.

  The grid has twenty points; point `t` is handed rows `t·5000 … t·5000 + 4999` of the mean array and of
  the feature array, the two whole weight matrices and the bias row, and writes back rows
  `t·5000 … t·5000 + 4999` of the result.  At row `p` of its block and feature `q` the body's value is the
  first layer's formula over those rows, so what point `t` writes back is block `t` of ONE array — the
  first layer of the whole arrays — and, the twenty row blocks covering every row, the result array ends
  holding exactly that array.
-/
import proofs.«150540_j34093450396002_1_alg».proof.Proof.Gen.KernelIdeal.Frame
import proofs.«150540_j34093450396002_1_alg».proof.Proof.Spec
import proofs.«150540_j34093450396002_1_alg».proof.Proof.Payload
import Idealize.ShloMosaic.Lib.Pipeline.Value
import Idealize.ShloMosaic.Lib.ValueIdx

set_option maxRecDepth 16384

noncomputable section

namespace Cert.Sage.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Sage
open scoped BigOperators

section Region0

variable (V : (c : Dev nD) → (b : Ref sig .tc) → Buf (Elt Ideal) ((c : Thread nD τ).loc b))

theorem hz : (![0, 0] : Fin 2 → Nat) = fun _ => 0 := funext fun a => by fin_cases a <;> rfl

/-- The index maps over the twenty grid points: the two row-blocked inputs and the output are at row block `t`;
    the two weight matrices and the bias row are the whole arrays at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the mean block at point `t` is row `t·5000 + p` of the mean array. -/
theorem read0_0 (c : Dev nD) (t : Fin cfg0.N) (p : Fin 5000) (j : Fin 128) (r : Fin 100000)
    (hr : r.val = t.val * 5000 + p.val) :
    iblk0 V c 0 t (ix2 p j) = V c main_v21 (ix2 r j) := by
  obtain ⟨e0, e1, -⟩ := idx_facts0 t
  show V c main_v21 (((cfg0.win 0).blk t).view.emb (ix2 p j)) = V c main_v21 (ix2 r j)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

/-- Row `p` of the feature block at point `t` is row `t·5000 + p` of the feature array. -/
theorem read0_1 (c : Dev nD) (t : Fin cfg0.N) (p : Fin 5000) (j : Fin 128) (r : Fin 100000)
    (hr : r.val = t.val * 5000 + p.val) :
    iblk0 V c 1 t (ix2 p j) = V c main_arg0 (ix2 r j) := by
  obtain ⟨-, -, e0, e1, -⟩ := idx_facts0 t
  show V c main_arg0 (((cfg0.win 1).blk t).view.emb (ix2 p j)) = V c main_arg0 (ix2 r j)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * j.val = j.val; omega

/-- Every point is handed the whole first weight matrix. -/
theorem read0_2 (c : Dev nD) (t : Fin cfg0.N) (q j : Fin 128) :
    iblk0 V c 2 t (ix2 q j) = V c main_arg1 (ix2 q j) := by
  obtain ⟨-, -, -, -, e0, e1, -⟩ := idx_facts0 t
  show V c main_arg1 (((cfg0.win 2).blk t).view.emb (ix2 q j)) = V c main_arg1 (ix2 q j)
  refine congrArg _ (funext fun a => Fin.ext ?_)
  match a with
  | ⟨0, _⟩ => show win0_2.index t (0 : Fin 2) * 128 + 1 * q.val = q.val; omega
  | ⟨1, _⟩ => show win0_2.index t (1 : Fin 2) * 128 + 1 * j.val = j.val; omega

/-- Every point is handed the whole second weight matrix. -/
theorem read0_3 (c : Dev nD) (t : Fin cfg0.N) (q j : Fin 128) :
    iblk0 V c 3 t (ix2 q j) = V c main_arg2 (ix2 q j) := by
  obtain ⟨-, -, -, -, -, -, e0, e1, -⟩ := idx_facts0 t
  show V c main_arg2 (((cfg0.win 3).blk t).view.emb (ix2 q j)) = V c main_arg2 (ix2 q j)
  refine congrArg _ (funext fun a => Fin.ext ?_)
  match a with
  | ⟨0, _⟩ => show win0_3.index t (0 : Fin 2) * 128 + 1 * q.val = q.val; omega
  | ⟨1, _⟩ => show win0_3.index t (1 : Fin 2) * 128 + 1 * j.val = j.val; omega

/-- Every point is handed the whole bias row. -/
theorem read0_4 (c : Dev nD) (t : Fin cfg0.N) (q : Fin 128) :
    iblk0 V c 4 t (ix2 (0 : Fin 1) q) = V c main_v22 (ix2 (0 : Fin 1) q) := by
  obtain ⟨-, -, -, -, -, -, -, -, e0, e1, -⟩ := idx_facts0 t
  show V c main_v22 (((cfg0.win 4).blk t).view.emb (ix2 (0 : Fin 1) q)) = V c main_v22 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The first layer of the arrays the region is entered with. -/
def G0 (c : Dev nD) : FVec Ideal S100000x128 .f32 :=
  hidden (V c main_v21) (V c main_arg0) (V c main_arg1) (V c main_arg2) (fun k => V c main_v22 (ix2 (0 : Fin 1) k))

/-- What point `t` writes back is block `t` of that array. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht : t.val < 20 := lt_of_lt_of_eq t.isLt N_0
  have hp : p.val < 5000 := p.isLt
  obtain ⟨r, hr⟩ : ∃ r : Fin 100000, r.val = t.val * 5000 + p.val := ⟨⟨t.val * 5000 + p.val, by omega⟩, rfl⟩
  refine (pay0_apply _ _ _ _ _ p q).trans ?_
  have he : ((cfg0.win 5).blk t).view.emb (ix2 p q) = ix2 r q := by
    obtain ⟨-, -, -, -, -, -, -, -, -, -, e0, e1⟩ := idx_facts0 t
    refine funext fun a => Fin.ext ?_
    match a with
    | ⟨0, _⟩ => show win0_5.index t (0 : Fin 2) * 5000 + 1 * p.val = r.val; omega
    | ⟨1, _⟩ => show win0_5.index t (1 : Fin 2) * 128 + 1 * q.val = q.val; omega
  show _ = G0 V c (((cfg0.win 5).blk t).view.emb (ix2 p q))
  rw [he]
  unfold G0
  rw [hidden_apply]
  unfold hiddenAt
  simp only [read0_0 V c t p _ r hr, read0_1 V c t p _ r hr, read0_2 V c t, read0_3 V c t, read0_4 V c t]

/-- An index is in point `t`'s output block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Row `r` of the result is in the block of point `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, htv⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, -, -, -, -, e0, e1⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the region: the first layer of the arrays it was entered with. -/
theorem final0 (c : Dev nD) : (dat0 V c).arrAt 5 cfg0.N = G0 V c :=
  (dat0 V c).arrAt_eq_of_cover 5 (G0 V c) (fun t _ => flushed0_eq V c t) (cover0)

end Region0

end Cert.Sage.Kernel

end
-- ==== Proof.Region1.lean ====
/-
  Region two of the kernel's program (the second layer), as one function of the arrays it is entered with.

  As in region one the grid has twenty points and point `t` works on rows `t·5000 … t·5000 + 4999`: of the
  mean array and of the hidden-feature array on the way in, of the result (sixty-four features wide) on the
  way out; the two weight matrices (sixty-four by one hundred and twenty-eight) and the bias row are whole
  at every point.  The body's value at (row, feature) is the second layer's formula, so the result array
  ends holding the second layer of the whole arrays.
-/
import proofs.«150540_j34093450396002_1_alg».proof.Proof.Gen.KernelIdeal.Frame
import proofs.«150540_j34093450396002_1_alg».proof.Proof.Spec
import proofs.«150540_j34093450396002_1_alg».proof.Proof.Payload
import Idealize.ShloMosaic.Lib.Pipeline.Value
import Idealize.ShloMosaic.Lib.ValueIdx

set_option maxRecDepth 16384

noncomputable section

namespace Cert.Sage.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Sage
open scoped BigOperators

section Region1

variable (V : (c : Dev nD) → (b : Ref sig .tc) → Buf (Elt Ideal) ((c : Thread nD τ).loc b))

theorem hz1 : (![0, 0] : Fin 2 → Nat) = fun _ => 0 := funext fun a => by fin_cases a <;> rfl

/-- The index maps over the twenty grid points: the two row-blocked inputs and the output are at row block `t`;
    the two weight matrices and the bias row are the whole arrays at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the mean block at point `t` is row `t·5000 + p` of the mean array. -/
theorem read1_0 (c : Dev nD) (t : Fin cfg1.N) (p : Fin 5000) (j : Fin 128) (r : Fin 100000)
    (hr : r.val = t.val * 5000 + p.val) :
    iblk1 V c 0 t (ix2 p j) = V c main_v41 (ix2 r j) := by
  obtain ⟨e0, e1, -⟩ := idx_facts1 t
  show V c main_v41 (((cfg1.win 0).blk t).view.emb (ix2 p j)) = V c main_v41 (ix2 r j)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * j.val = j.val; omega

/-- Row `p` of the hidden-feature block at point `t` is row `t·5000 + p` of the hidden-feature array. -/
theorem read1_1 (c : Dev nD) (t : Fin cfg1.N) (p : Fin 5000) (j : Fin 128) (r : Fin 100000)
    (hr : r.val = t.val * 5000 + p.val) :
    iblk1 V c 1 t (ix2 p j) = V c main_v23 (ix2 r j) := by
  obtain ⟨-, -, e0, e1, -⟩ := idx_facts1 t
  show V c main_v23 (((cfg1.win 1).blk t).view.emb (ix2 p j)) = V c main_v23 (ix2 r j)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * j.val = j.val; omega

/-- Every point is handed the whole first weight matrix. -/
theorem read1_2 (c : Dev nD) (t : Fin cfg1.N) (q : Fin 64) (j : Fin 128) :
    iblk1 V c 2 t (ix2 q j) = V c main_arg4 (ix2 q j) := by
  obtain ⟨-, -, -, -, e0, e1, -⟩ := idx_facts1 t
  show V c main_arg4 (((cfg1.win 2).blk t).view.emb (ix2 q j)) = V c main_arg4 (ix2 q j)
  refine congrArg _ (funext fun a => Fin.ext ?_)
  match a with
  | ⟨0, _⟩ => show win1_2.index t (0 : Fin 2) * 64 + 1 * q.val = q.val; omega
  | ⟨1, _⟩ => show win1_2.index t (1 : Fin 2) * 128 + 1 * j.val = j.val; omega

/-- Every point is handed the whole second weight matrix. -/
theorem read1_3 (c : Dev nD) (t : Fin cfg1.N) (q : Fin 64) (j : Fin 128) :
    iblk1 V c 3 t (ix2 q j) = V c main_arg5 (ix2 q j) := by
  obtain ⟨-, -, -, -, -, -, e0, e1, -⟩ := idx_facts1 t
  show V c main_arg5 (((cfg1.win 3).blk t).view.emb (ix2 q j)) = V c main_arg5 (ix2 q j)
  refine congrArg _ (funext fun a => Fin.ext ?_)
  match a with
  | ⟨0, _⟩ => show win1_3.index t (0 : Fin 2) * 64 + 1 * q.val = q.val; omega
  | ⟨1, _⟩ => show win1_3.index t (1 : Fin 2) * 128 + 1 * j.val = j.val; omega

/-- Every point is handed the whole bias row. -/
theorem read1_4 (c : Dev nD) (t : Fin cfg1.N) (q : Fin 64) :
    iblk1 V c 4 t (ix2 (0 : Fin 1) q) = V c main_v42 (ix2 (0 : Fin 1) q) := by
  obtain ⟨-, -, -, -, -, -, -, -, e0, e1, -⟩ := idx_facts1 t
  show V c main_v42 (((cfg1.win 4).blk t).view.emb (ix2 (0 : Fin 1) q)) = V c main_v42 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The second layer of the arrays the region is entered with. -/
def G1 (c : Dev nD) : FVec Ideal S100000x64 .f32 :=
  output (V c main_v41) (V c main_v23) (V c main_arg4) (V c main_arg5) (fun k => V c main_v42 (ix2 (0 : Fin 1) k))

/-- What point `t` writes back is block `t` of that array. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S64x128) hz1, View.ld_unit_zero (S := S1x64) hz1]
  funext y
  obtain ⟨p, q, rfl⟩ : ∃ (p : Fin 5000) (q : Fin 64), y = ix2 p q := ⟨y 0, y 1, eq_ix2 y⟩
  have ht : t.val < 20 := lt_of_lt_of_eq t.isLt N_1
  have hp : p.val < 5000 := p.isLt
  obtain ⟨r, hr⟩ : ∃ r : Fin 100000, r.val = t.val * 5000 + p.val := ⟨⟨t.val * 5000 + p.val, by omega⟩, rfl⟩
  refine (pay1_apply _ _ _ _ _ p q).trans ?_
  have he : ((cfg1.win 5).blk t).view.emb (ix2 p q) = ix2 r q := by
    obtain ⟨-, -, -, -, -, -, -, -, -, -, e0, e1⟩ := idx_facts1 t
    refine funext fun a => Fin.ext ?_
    match a with
    | ⟨0, _⟩ => show win1_5.index t (0 : Fin 2) * 5000 + 1 * p.val = r.val; omega
    | ⟨1, _⟩ => show win1_5.index t (1 : Fin 2) * 64 + 1 * q.val = q.val; omega
  show _ = G1 V c (((cfg1.win 5).blk t).view.emb (ix2 p q))
  rw [he]
  unfold G1
  rw [output_apply]
  unfold outAt
  simp only [read1_0 V c t p _ r hr, read1_1 V c t p _ r hr, read1_2 V c t, read1_3 V c t, read1_4 V c t]

/-- An index is in point `t`'s output block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43).slice (win1_5.rect t)).set ↔ _
  rw [View.set_slice_whole, Rect.mem_set_unit]
  exact Iff.rfl

/-- Row `r` of the result is in the block of point `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, htv⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The result array after the region: the second layer of the arrays it was entered with. -/
theorem final1 (c : Dev nD) : (dat1 V c).arrAt 5 cfg1.N = G1 V c :=
  (dat1 V c).arrAt_eq_of_cover 5 (G1 V c) (fun t _ => flushed1_eq V c t) (cover1)

end Region1

end Cert.Sage.Kernel

end
-- ==== Proof.Model.lean ====
/-
  The whole network as one function of the eight arguments: the hidden features are the first layer of
  the input features and their neighbourhood means; the result is the second layer of the hidden features
  and THEIR neighbourhood means.  Both programs are shown to end at this array.
-/
import proofs.«150540_j34093450396002_1_alg».proof.Proof.Spec
import proofs.«150540_j34093450396002_1_alg».proof.Proof.Agg

noncomputable section

namespace Cert.Sage

open Idealize.ShloMosaic Idealize.ShloMosaic.ValueIdx Cert.KernelIdeal

/-- The hidden features: layer one of `x` and the means of `x` over incoming edges. -/
def hiddenOf (x : FVec Ideal S100000x128 .f32) (W1l W1r : FVec Ideal S128x128 .f32) (b1 : FVec Ideal S128 .f32)
    (e : IVec S2x1600000 32) : FVec Ideal S100000x128 .f32 :=
  hidden (agg x e) x W1l W1r (fun k => b1 (ix1 k))

/-- The network's result: layer two of the hidden features and their means over incoming edges. -/
def model (x : FVec Ideal S100000x128 .f32) (W1l W1r : FVec Ideal S128x128 .f32) (b1 : FVec Ideal S128 .f32)
    (W2l W2r : FVec Ideal S64x128 .f32) (b2 : FVec Ideal S64 .f32) (e : IVec S2x1600000 32) :
    FVec Ideal S100000x64 .f32 :=
  output (agg (hiddenOf x W1l W1r b1 e) e) (hiddenOf x W1l W1r b1 e) W2l W2r (fun k => b2 (ix1 k))

end Cert.Sage

end
-- ==== Proof.KernelValue.lean ====
/-
  The kernel's program ends with the network's result.

  The result buffer ends at the last boundary's contents; there it is region two's result array, which is
  the second layer of the arrays region two was entered with: the neighbourhood mean of region one's
  result, that result itself, and the second weights and bias.  Region one's result array is in turn the
  first layer of the arrays region one was entered with: the neighbourhood mean of the input features, the
  input features, and the first weights and bias.  Composed, that is the network function of the arguments.
-/
import proofs.«150540_j34093450396002_1_alg».proof.Proof.KernelRun
import proofs.«150540_j34093450396002_1_alg».proof.Proof.HostK0
import proofs.«150540_j34093450396002_1_alg».proof.Proof.HostK1
import proofs.«150540_j34093450396002_1_alg».proof.Proof.Region0
import proofs.«150540_j34093450396002_1_alg».proof.Proof.Region1
import proofs.«150540_j34093450396002_1_alg».proof.Proof.Model

set_option maxRecDepth 16384

noncomputable section

namespace Cert.Sage.Kernel

open Idealize.ShloMosaic Idealize.ShloMosaic.TcCoe
open Idealize.SL Idealize.SL.Sem
open Idealize.ShloMosaic.ValueIdx
open Cert.KernelIdeal Cert.KernelIdeal.Gen Cert.Sage

variable (m : (ℓ : Loc nD τ sig) → Buf (Elt Ideal) ℓ) (ρ : Dev nD → PrngReg)

/-- Region one leaves the hidden features of the arguments. -/
theorem hidden_value (c : Dev nD) :
    (W4 m ρ c (Proc.devRef .tc main_v23) : FVec Ideal S100000x128 .f32)
      = hiddenOf (m ((c : Thread nD τ).loc main_arg0)) (m ((c : Thread nD τ).loc main_arg1))
          (m ((c : Thread nD τ).loc main_arg2)) (m ((c : Thread nD τ).loc main_arg3)) (m ((c : Thread nD τ).loc main_arg7)) := by
  refine (W4_arr m ρ c 5).trans ((final0 (V3 m ρ) c).trans ?_)
  have h21 : (V3 m ρ c main_v21 : FVec Ideal S100000x128 .f32) = agg (F := Ideal) (m ((c : Thread nD τ).loc main_arg0)) (m ((c : Thread nD τ).loc main_arg7)) := V3_v21 m ρ c
  have hb : (fun k : Fin 128 => (V3 m ρ c main_v22 : FVec Ideal S1x128 .f32) (ix2 (0 : Fin 1) k))
      = fun k : Fin 128 => ((m ((c : Thread nD τ).loc main_arg3)) : FVec Ideal S128 .f32) (ix1 k) := funext fun k => V3_v22 m ρ c k
  unfold G0 hiddenOf
  rw [h21, V3_arg0 m ρ c, V3_arg1 m ρ c, V3_arg2 m ρ c, hb]

/-- Region two leaves the network's result. -/
theorem result_value (c : Dev nD) :
    (W8 m ρ c (Proc.devRef .tc main_v43) : FVec Ideal S100000x64 .f32)
      = model (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W8_arr m ρ c 5).trans ((final1 (V7 m ρ) c).trans ?_)
  have h41 : (V7 m ρ c main_v41 : FVec Ideal S100000x128 .f32)
      = agg (F := Ideal) (W4 m ρ c (Proc.devRef .tc main_v23)) (m ((c : Thread nD τ).loc main_arg7)) := V7_v41 m ρ c
  have hb : (fun k : Fin 64 => (V7 m ρ c main_v42 : FVec Ideal S1x64 .f32) (ix2 (0 : Fin 1) k))
      = fun k : Fin 64 => ((m ((c : Thread nD τ).loc main_arg6)) : FVec Ideal S64 .f32) (ix1 k) := funext fun k => V7_v42 m ρ c k
  unfold G1 model
  rw [h41, V7_v23 m ρ c, V7_arg4 m ρ c, V7_arg5 m ρ c, hb, hidden_value m ρ c]

/-- The run of the kernel's program with its result named: the network function of the arguments. -/
theorem run_model : θ_run defs (onTc (τ := τ) (main (F := Ideal))) ⟨m, fun _ => 0, ρ⟩ (fun r => ∀ c : Dev nD,
      r.2.mem ((c.tc : Thread nD τ).loc main_v43)
        = model (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.Sage.Kernel

end
-- ==== Proof.RefValue.lean ====
/-
  The reference program's result, at the ideal (extended-real) instance, is the network function of its
  eight arguments.

  The reference computes a layer at node `r`, output feature `k` as

      (∑ j, mean r j · Wl k j  +  b k)  +  ∑ j, x r j · Wr k j,

  the bias added between the two products, where the network function adds it after both; addition of
  extended reals is commutative and associative, so the two agree.  The weights are stored
  output-feature-major and transposed before each product, so the product's right factor at contraction
  index `j` and output feature `k` is the stored entry `(k, j)`.  The bias vector is broadcast along the
  nodes.  The maximum with the zero word after the first layer is the maximum with `0`.

  The neighbourhood mean is carried as one opaque function of a feature array and the edge list: the
  reference's chain of slicing, index wrapping, gathering, two scatter-additions, clamping the count to at
  least one and dividing is the same chain of operations, applied once to the input features and once to the
  hidden features, so the two are equal without ever looking at an entry.
-/
import proofs.«150540_j34093450396002_1_alg».proof.Proof.Gen.ReferenceIdeal.Read
import proofs.«150540_j34093450396002_1_alg».proof.Proof.Model

noncomputable section

open scoped BigOperators

namespace Cert.Sage.Ref

open Idealize.ShloMosaic Idealize.ShloMosaic.ValueIdx Cert.ReferenceIdeal Cert.ReferenceIdeal.Read

/-! ## The neighbourhood mean, as a whole array -/

/-- The reference's first mean — of the input features over incoming edges — is the mean function. -/
theorem mean_input (x0 : FVec Ideal S100000x128 .f32) (x7 : IVec S2x1600000 32) :
    val_main_v21 (F := Ideal) x0 x7 = Cert.Sage.agg (F := Ideal) x0 x7 := by
  unfold val_main_v21 val_main_v20 val_main_v19 val_main_v18 val_main_v17 val_main_v16 val_main_v15 val_main_v14
    val_main_v13 val_main_v12 val_main_v11 val_main_v10 val_main_v9 val_main_v8 val_main_v7 val_main_v6 val_main_v5
    val_main_v4 val_main_v3 val_main_v2 val_main_v1 val_main_v0 val_main_call0_v1 val_main_call0_v0
    val_main_cst val_main_cst_1 val_main_cst_2 val_main_cst_3 val_main_c val_main_c_0
    Cert.Sage.agg Cert.Sage.edgeRow0 Cert.Sage.edgeRow1
  rfl

/-- The reference's second mean — of the hidden features over incoming edges, the edge list sliced anew —
    is the mean function of the hidden features. -/
theorem mean_hidden (x0 : FVec Ideal S100000x128 .f32) (x1 x2 : FVec Ideal S128x128 .f32)
    (x3 : FVec Ideal S128 .f32) (x7 : IVec S2x1600000 32) :
    val_main_v52 (F := Ideal) x0 x1 x2 x3 x7
      = Cert.Sage.agg (F := Ideal) (val_main_v30 (F := Ideal) x0 x1 x2 x3 x7) x7 := by
  unfold val_main_v52 val_main_v51 val_main_v50 val_main_v49 val_main_v48 val_main_v47 val_main_v46 val_main_v45
    val_main_v44 val_main_v43 val_main_v42 val_main_v41 val_main_v40 val_main_v39 val_main_v38 val_main_v37 val_main_v36
    val_main_v35 val_main_v34 val_main_v33 val_main_v32 val_main_v31 val_main_call2_v1 val_main_call2_v0
    val_main_cst_6 val_main_cst_7 val_main_cst_8 val_main_cst_9 val_main_c_4 val_main_c_5
    Cert.Sage.agg Cert.Sage.edgeRow0 Cert.Sage.edgeRow1
  generalize val_main_v30 (F := Ideal) x0 x1 x2 x3 x7 = h
  rfl

/-! ## Where each stage reads its operands -/

/-- The left factor of a product with 128 outputs, at node `r` and contraction index `j`, is entry `(r, j)`. -/
theorem left_at_128 (r : Fin 100000) (k j : Fin 128) : lidx_main_v23 (ix2 r k) j = ix2 r j :=
  funext fun a => Fin.ext (by match a with | ⟨0, _⟩ => rfl | ⟨1, _⟩ => rfl)

/-- The transposed weight of a product with 128 outputs, at contraction index `j` and output `k`, is the
    stored entry `(k, j)`. -/
theorem weight_at_128 (r : Fin 100000) (k j : Fin 128) :
    idx_main_v22 (ridx_main_v23 (ix2 r k) j) = ix2 k j :=
  funext fun a => Fin.ext (by match a with | ⟨0, _⟩ => rfl | ⟨1, _⟩ => rfl)

/-- The bias broadcast along the nodes, at node `r` and feature `k`, is entry `k` of the bias vector. -/
theorem bias_at_128 (r : Fin 100000) (k : Fin 128) : idx_main_v24 (idx_main_v25 (ix2 r k)) = ix1 k :=
  funext fun a => Fin.ext (by match a with | ⟨0, _⟩ => rfl)

/-- The left factor of a product with 64 outputs, at node `r` and contraction index `j`, is entry `(r, j)`. -/
theorem left_at_64 (r : Fin 100000) (k : Fin 64) (j : Fin 128) : lidx_main_v54 (ix2 r k) j = ix2 r j :=
  funext fun a => Fin.ext (by match a with | ⟨0, _⟩ => rfl | ⟨1, _⟩ => rfl)

/-- The transposed weight of a product with 64 outputs, at contraction index `j` and output `k`, is the
    stored entry `(k, j)`. -/
theorem weight_at_64 (r : Fin 100000) (k : Fin 64) (j : Fin 128) :
    idx_main_v53 (ridx_main_v54 (ix2 r k) j) = ix2 k j :=
  funext fun a => Fin.ext (by match a with | ⟨0, _⟩ => rfl | ⟨1, _⟩ => rfl)

/-- The bias broadcast along the nodes, at node `r` and feature `k`, is entry `k` of the bias vector. -/
theorem bias_at_64 (r : Fin 100000) (k : Fin 64) : idx_main_v55 (idx_main_v56 (ix2 r k)) = ix1 k :=
  funext fun a => Fin.ext (by match a with | ⟨0, _⟩ => rfl)

/-- The left factor of the second product of the first layer reads the same entry. -/
theorem left_at_128' (r : Fin 100000) (k j : Fin 128) : lidx_main_v28 (ix2 r k) j = ix2 r j :=
  funext fun a => Fin.ext (by match a with | ⟨0, _⟩ => rfl | ⟨1, _⟩ => rfl)

/-- The transposed weight of the second product of the first layer reads the stored entry `(k, j)`. -/
theorem weight_at_128' (r : Fin 100000) (k j : Fin 128) :
    idx_main_v27 (ridx_main_v28 (ix2 r k) j) = ix2 k j :=
  funext fun a => Fin.ext (by match a with | ⟨0, _⟩ => rfl | ⟨1, _⟩ => rfl)

/-- The left factor of the second product of the second layer reads the same entry. -/
theorem left_at_64' (r : Fin 100000) (k : Fin 64) (j : Fin 128) : lidx_main_v59 (ix2 r k) j = ix2 r j :=
  funext fun a => Fin.ext (by match a with | ⟨0, _⟩ => rfl | ⟨1, _⟩ => rfl)

/-- The transposed weight of the second product of the second layer reads the stored entry `(k, j)`. -/
theorem weight_at_64' (r : Fin 100000) (k : Fin 64) (j : Fin 128) :
    idx_main_v58 (ridx_main_v59 (ix2 r k) j) = ix2 k j :=
  funext fun a => Fin.ext (by match a with | ⟨0, _⟩ => rfl | ⟨1, _⟩ => rfl)

/-! ## The first layer -/

/-- The reference's hidden features at node `r`, feature `k`. -/
theorem hidden_at (x0 : FVec Ideal S100000x128 .f32) (x1 x2 : FVec Ideal S128x128 .f32)
    (x3 : FVec Ideal S128 .f32) (x7 : IVec S2x1600000 32) (r : Fin 100000) (k : Fin 128) :
    val_main_v30 (F := Ideal) x0 x1 x2 x3 x7 (ix2 r k)
      = Cert.Sage.hiddenAt (Cert.Sage.agg (F := Ideal) x0 x7) x0 x1 x2 (fun k => x3 (ix1 k)) r k := by
  rw [val_main_v30_apply, val_main_v29_apply, val_main_v26_apply, val_main_v23_apply, val_main_v28_apply,
    val_main_v25_apply, val_main_v24_apply, val_main_call1_v0_apply, val_main_call1_cst_apply, mean_input]
  simp only [val_main_v22_apply, val_main_v27_apply, left_at_128, weight_at_128, bias_at_128, left_at_128',
    weight_at_128']
  unfold Cert.Sage.hiddenAt
  simp only [Ideal.maximumf_def, Ideal.addf_def, Ideal.ofBits_def, Ideal.ofBits_zero_f32]
  rw [Cert.Sage.bias_between]

/-- The reference's hidden features are the first layer of the input features and their means. -/
theorem hidden_eq (x0 : FVec Ideal S100000x128 .f32) (x1 x2 : FVec Ideal S128x128 .f32)
    (x3 : FVec Ideal S128 .f32) (x7 : IVec S2x1600000 32) :
    val_main_v30 (F := Ideal) x0 x1 x2 x3 x7 = Cert.Sage.hiddenOf x0 x1 x2 x3 x7 := by
  funext i
  obtain ⟨r, k, rfl⟩ : ∃ (r : Fin 100000) (k : Fin 128), i = ix2 r k := ⟨i 0, i 1, eq_ix2 i⟩
  rw [hidden_at, Cert.Sage.hiddenOf, Cert.Sage.hidden_apply]

/-! ## The second layer -/

/-- The reference's result at node `r`, output feature `k`, in terms of its own hidden features. -/
theorem out_at (x0 : FVec Ideal S100000x128 .f32) (x1 x2 : FVec Ideal S128x128 .f32)
    (x3 : FVec Ideal S128 .f32) (x4 x5 : FVec Ideal S64x128 .f32) (x6 : FVec Ideal S64 .f32)
    (x7 : IVec S2x1600000 32) (r : Fin 100000) (k : Fin 64) :
    val_main_v60 (F := Ideal) x0 x1 x2 x3 x4 x5 x6 x7 (ix2 r k)
      = Cert.Sage.outAt (Cert.Sage.agg (F := Ideal) (val_main_v30 (F := Ideal) x0 x1 x2 x3 x7) x7)
          (val_main_v30 (F := Ideal) x0 x1 x2 x3 x7) x4 x5 (fun k => x6 (ix1 k)) r k := by
  rw [val_main_v60_apply, val_main_v57_apply, val_main_v54_apply, val_main_v59_apply, val_main_v56_apply,
    val_main_v55_apply, mean_hidden]
  generalize val_main_v30 (F := Ideal) x0 x1 x2 x3 x7 = h
  simp only [val_main_v53_apply, val_main_v58_apply, left_at_64, weight_at_64, bias_at_64, left_at_64',
    weight_at_64']
  unfold Cert.Sage.outAt
  simp only [Ideal.addf_def]
  rw [Cert.Sage.bias_between]

/-- The reference's result is the second layer of its hidden features and their means. -/
theorem out_eq (x0 : FVec Ideal S100000x128 .f32) (x1 x2 : FVec Ideal S128x128 .f32)
    (x3 : FVec Ideal S128 .f32) (x4 x5 : FVec Ideal S64x128 .f32) (x6 : FVec Ideal S64 .f32)
    (x7 : IVec S2x1600000 32) :
    val_main_v60 (F := Ideal) x0 x1 x2 x3 x4 x5 x6 x7 = Cert.Sage.model x0 x1 x2 x3 x4 x5 x6 x7 := by
  funext i
  obtain ⟨r, k, rfl⟩ : ∃ (r : Fin 100000) (k : Fin 64), i = ix2 r k := ⟨i 0, i 1, eq_ix2 i⟩
  rw [out_at, hidden_eq, Cert.Sage.model, Cert.Sage.output_apply]

/-! ## The run's result -/

/-- The reference program's result is the network function of the eight arguments. -/
theorem ref_value (m : (ℓ : Loc nD τ sig) → Buf (Elt Ideal) ℓ) (c : Dev nD) :
    Cert.ReferenceIdeal.Value.res_out0 (F := Ideal) m c
      = Cert.Sage.model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v60_eq (F := Ideal) m c).trans (out_eq _ _ _ _ _ _ _ _)

end Cert.Sage.Ref

end
-- ==== Proof.lean ====
/-
  The certificate of a two-layer graph convolution.

  The kernel's program computes each layer's neighbourhood means with array operations (a gather of the
  source rows, a scatter-add into the destination rows, a count of incoming edges raised to at least one,
  a division) and each layer's linear combination in a pipelined region over twenty row blocks: the block
  of means times one transposed weight matrix plus the block of node features times the other, plus the
  bias, the first layer followed by a maximum with zero.  The reference computes the same means with the
  same array operations and each linear combination as two whole matrix products, adding the bias BETWEEN
  the two products instead of after them.  Over the extended reals the two results are one array: a block
  product is the whole product's rows (every entry is a plain sum over the shared features), a change of
  float format is the identity, and the three addends commute.  No input needs to be finite for that, so
  the precondition is never opened.

  The three frames: the two pipelined programs' by the generated frame proofs, the reference's by its
  generated run with the result dropped.  Nothing was rewritten when the kernel was idealized, so the
  preservation claim is trivial.  The equality of results: the kernel's program ends at the network function
  of its arguments (KernelValue.lean), the reference's ends at the same function of its own (RefValue.lean),
  and the arguments agree.
-/
import proofs.«150540_j34093450396002_1_alg».proof.Defs
import proofs.«150540_j34093450396002_1_alg».proof.Proof.Gen.Kernel
import proofs.«150540_j34093450396002_1_alg».proof.Proof.Gen.Kernel.Skeleton
import proofs.«150540_j34093450396002_1_alg».proof.Proof.Gen.Kernel.Launch
import proofs.«150540_j34093450396002_1_alg».proof.Proof.Gen.Kernel.Points
import proofs.«150540_j34093450396002_1_alg».proof.Proof.Gen.Kernel.Frame
import proofs.«150540_j34093450396002_1_alg».proof.Proof.Gen.KernelIdeal
import proofs.«150540_j34093450396002_1_alg».proof.Proof.Gen.KernelIdeal.Skeleton
import proofs.«150540_j34093450396002_1_alg».proof.Proof.Gen.KernelIdeal.Launch
import proofs.«150540_j34093450396002_1_alg».proof.Proof.Gen.KernelIdeal.Points
import proofs.«150540_j34093450396002_1_alg».proof.Proof.Gen.KernelIdeal.Frame
import proofs.«150540_j34093450396002_1_alg».proof.Proof.Gen.ReferenceIdeal
import proofs.«150540_j34093450396002_1_alg».proof.Proof.Gen.Pre_finite_inputs
import proofs.«150540_j34093450396002_1_alg».proof.Proof.Gen.ReferenceIdeal.Run
import proofs.«150540_j34093450396002_1_alg».proof.Proof.Gen.ReferenceIdeal.Read
import proofs.«150540_j34093450396002_1_alg».proof.Proof.KernelValue
import proofs.«150540_j34093450396002_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the network function of those
    arguments in their result arrays. -/
theorem algebraic : Cert.algebraic_KernelIdeal_ReferenceIdeal := by
  intro m ρ m' ρ' _ hagree
  refine ⟨_, Cert.Sage.Kernel.run_model m ρ, ?_⟩
  refine (θ_run Cert.ReferenceIdeal.defs _ _).mono (fun _ h c => ⟨(h c).1.trans ?_, (h c).2⟩)
    (Cert.ReferenceIdeal.Value.run (F := Ideal) m' ρ')
  refine (Cert.Sage.Ref.ref_value m' c).trans ?_
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
